-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x128 : Shape := ⟨2, ![768, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S768x128 : S_.BroadcastsInDim S768x128 (![] : Fin 0 → Fin S768x128.rank)
  reducesTo_S768x128_S_d0_1 : S768x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S2x128 .f32) (main_arg6 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S768x128 .f32) (main_arg1 : FVec F S256x256 .f32) (main_arg2 : FVec F S256 .f32) (main_arg3 : FVec F S128x256 .f32) (main_arg4 : FVec F S128 .f32) (main_arg5 : FVec F S2x128 .f32) (main_arg6 : FVec F S2 .f32) : IVec S_ 1 :=
  let main_v0 : FVec F S768x128 .f32 := Host.absf main_arg0
  let main_cst : FVec F S_ .f32 := constant S_ .f32 0x7F800000#32
  let main_v1 : FVec F S768x128 .f32 := broadcastInDim S768x128 ![] bcast_S_S768x128 main_cst
  let main_v2 : IVec S768x128 1 := cmpf .olt main_v0 main_v1
  let main_c : IVec S_ 1 := constantI S_ 1 1#1
  let main_v3 : IVec S_ 1 := (fun x v => Host.reduce IntOp.andi x v reducesTo_S768x128_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S768x128 : Shape := ⟨2, ![768, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S256x128 : Shape := ⟨2, ![256, 128]⟩
abbrev S768x256 : Shape := ⟨2, ![768, 256]⟩
abbrev S1x256 : Shape := ⟨2, ![1, 256]⟩
abbrev S768x768 : Shape := ⟨2, ![768, 768]⟩
abbrev S128x128 : Shape := ⟨2, ![128, 128]⟩
abbrev S1x128x256 : Shape := ⟨3, ![1, 128, 256]⟩
abbrev S128x1x256 : Shape := ⟨3, ![128, 1, 256]⟩
abbrev S128x128x256 : Shape := ⟨3, ![128, 128, 256]⟩
abbrev S16384x256 : Shape := ⟨2, ![16384, 256]⟩
abbrev S16384x128 : Shape := ⟨2, ![16384, 128]⟩
abbrev S1x128 : Shape := ⟨2, ![1, 128]⟩
abbrev S128x128x128 : Shape := ⟨3, ![128, 128, 128]⟩
abbrev S1x1x128 : Shape := ⟨3, ![1, 1, 128]⟩
abbrev S768x768x1 : Shape := ⟨3, ![768, 768, 1]⟩
abbrev S768x768x2 : Shape := ⟨3, ![768, 768, 2]⟩
abbrev S1x1x2 : Shape := ⟨3, ![1, 1, 2]⟩

abbrev nBuf : Space → Nat
  | .hbm => 24
  | .vmem => 11
  | .smem => 0
  | _ => 0

abbrev bufTy : (tb : Table) → Fin (tcTables nBuf tb) → BufTy
  | .hbm, ⟨0, _⟩ => ⟨S768x128, .f32⟩
  | .hbm, ⟨1, _⟩ => ⟨S256x256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S256x128, .f32⟩
  | .hbm, ⟨8, _⟩ => ⟨S128x256, .f32⟩
  | .hbm, ⟨9, _⟩ => ⟨S768x256, .f32⟩
  | .hbm, ⟨10, _⟩ => ⟨S256x128, .f32⟩
  | .hbm, ⟨11, _⟩ => ⟨S128x256, .f32⟩
  | .hbm, ⟨12, _⟩ => ⟨S768x256, .f32⟩
  | .hbm, ⟨13, _⟩ => ⟨S1x256, .f32⟩
  | .hbm, ⟨14, _⟩ => ⟨S768x256, .f32⟩
  | .hbm, ⟨15, _⟩ => ⟨S768x256, .f32⟩
  | .hbm, ⟨16, _⟩ => ⟨S768x768, .f32⟩
  | .hbm, ⟨17, _⟩ => ⟨S768x768, .f32⟩
  | .hbm, ⟨18, _⟩ => ⟨S768x768x1, .f32⟩
  | .hbm, ⟨19, _⟩ => ⟨S768x768x1, .f32⟩
  | .hbm, ⟨20, _⟩ => ⟨S768x768x2, .f32⟩
  | .hbm, ⟨21, _⟩ => ⟨S1x1x2, .f32⟩
  | .hbm, ⟨22, _⟩ => ⟨S768x768x2, .f32⟩
  | .hbm, ⟨23, _⟩ => ⟨S768x768x2, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128, .f32⟩
  | .local _ .vmem, ⟨6, _⟩ => ⟨S2x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | _, _ => ⟨S768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S256x256_S256x128_0_0 : S256x256.Slices ![0, 0] S256x128
  transposes_S256x128_S128x256_1_0 : S256x128.Transposes [1, 0] S128x256
  slices_S256x256_S256x128_0_128 : S256x256.Slices ![0, 128] S256x128
  bcast_S256_S1x256_1 : S256.BroadcastsInDim S1x256 (![1] : Fin 1 → Fin S1x256.rank)
  bcast_S1x256_S768x256_0_1 : S1x256.BroadcastsInDim S768x256 (![0, 1] : Fin 2 → Fin S768x256.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  shapeCasts_S128x256_S1x128x256 : S128x256.ShapeCasts S1x128x256
  shapeCasts_S128x256_S128x1x256 : S128x256.ShapeCasts S128x1x256
  broadcasts_S1x128x256_S128x128x256 : S1x128x256.Broadcasts S128x128x256
  broadcasts_S128x1x256_S128x128x256 : S128x1x256.Broadcasts S128x128x256
  shapeCasts_S128x128x256_S16384x256 : S128x128x256.ShapeCasts S16384x256
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  shapeCasts_S16384x128_S128x128x128 : S16384x128.ShapeCasts S128x128x128
  inb_S2x128_S2x128_0_0 : ∀ a, (![0, 0] : Fin 2 → Nat) a + S2x128.size a ≤ S2x128.size a
  h_S2x128 : 0 < S2x128.numel
  slices_S2x128_o0_0_S1x128 : S2x128.Slices ![0, 0] S1x128
  shapeCasts_S1x128_S128 : S1x128.ShapeCasts S128
  slices_S2x128_o1_0_S1x128 : S2x128.Slices ![1, 0] S1x128
  shapeCasts_S128_S1x1x128 : S128.ShapeCasts S1x1x128
  broadcasts_S1x1x128_S128x128x128 : S1x1x128.Broadcasts S128x128x128
  reduces_S128x128x128_S128x128 : S128x128x128.Reduces [2] S128x128
  inb_S128x128_S128x128_0_0 : ∀ a, (![0, 0] : Fin 2 → Nat) a + S128x128.size a ≤ S128x128.size a
  h_S128x128 : 0 < S128x128.numel
  bcast_S768x768_S768x768x1_0_1 : S768x768.BroadcastsInDim S768x768x1 (![0, 1] : Fin 2 → Fin S768x768x1.rank)
  concatenates_S768x768x1_S768x768x1_S768x768x2_d2 : Shape.Concatenates [S768x768x1, S768x768x1] S768x768x2 2
  bcast_S2_S1x1x2_2 : S2.BroadcastsInDim S1x1x2 (![2] : Fin 1 → Fin S1x1x2.rank)
  bcast_S1x1x2_S768x768x2_0_1_2 : S1x1x2.BroadcastsInDim S768x768x2 (![0, 1, 2] : Fin 3 → Fin S768x768x2.rank)
  dot_S768x128_S128x256_S768x256_1_0_0_1_n_n_wf : DotDims.WF S768x128 S128x256 S768x256 [1] [0] [0] [1] [] []
  dot_S16384x256_S256x128_S16384x128_1_0_0_1_n_n_wf : DotDims.WF S16384x256 S256x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S768x256.size a
  hwx0_0 : ∀ i : grid0.Coords, EltTy.bits .f32 = 32 ∨ (Rect.block (s := S768x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S768x256.size a
  hwx0_1 : ∀ i : grid0.Coords, EltTy.bits .f32 = 32 ∨ (Rect.block (s := S768x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S768x768.size a
  hwx0_5 : ∀ i : grid0.Coords, EltTy.bits .f32 = 32 ∨ (Rect.block (s := S768x768) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S768x768.size a
  hwx0_6 : ∀ i : grid0.Coords, EltTy.bits .f32 = 32 ∨ (Rect.block (s := S768x768) S128x128.size (cc0_transform_6 i) (hinb0_6 i)).WholeWords (EltTy.packing .f32)

variable [Facts₀]

def dot_S768x128_S128x256_S768x256_1_0_0_1_n_n : DotDims S768x128 S128x256 S768x256 where
  lhsContracting := [1]
  rhsContracting := [0]
  lhsNonContracting := [0]
  rhsNonContracting := [1]
  lhsBatch := []
  rhsBatch := []
  wf := dot_S768x128_S128x256_S768x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

abbrev win0_0 : Pipeline.Window sig grid0 :=
  Pipeline.Window.ofSpec (Memref.whole main_v2) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S768x128 : Shape := ⟨2, ![768, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S256x128 : Shape := ⟨2, ![256, 128]⟩
abbrev S768x256 : Shape := ⟨2, ![768, 256]⟩
abbrev S1x768x256 : Shape := ⟨3, ![1, 768, 256]⟩
abbrev S768x1x256 : Shape := ⟨3, ![768, 1, 256]⟩
abbrev S768x768x256 : Shape := ⟨3, ![768, 768, 256]⟩
abbrev S1x1x256 : Shape := ⟨3, ![1, 1, 256]⟩
abbrev S_ : Shape := ⟨0, ![]⟩
abbrev S768x768x128 : Shape := ⟨3, ![768, 768, 128]⟩
abbrev S1x1x128 : Shape := ⟨3, ![1, 1, 128]⟩
abbrev S768x768x2 : Shape := ⟨3, ![768, 768, 2]⟩
abbrev S1x1x2 : Shape := ⟨3, ![1, 1, 2]⟩

abbrev nBuf : Space → Nat
  | .hbm => 33
  | .vmem => 0
  | .smem => 0
  | _ => 0

abbrev bufTy : (tb : Table) → Fin (tcTables nBuf tb) → BufTy
  | .hbm, ⟨0, _⟩ => ⟨S768x128, .f32⟩
  | .hbm, ⟨1, _⟩ => ⟨S256x256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S256x128, .f32⟩
  | .hbm, ⟨8, _⟩ => ⟨S768x256, .f32⟩
  | .hbm, ⟨9, _⟩ => ⟨S256x128, .f32⟩
  | .hbm, ⟨10, _⟩ => ⟨S768x256, .f32⟩
  | .hbm, ⟨11, _⟩ => ⟨S1x768x256, .f32⟩
  | .hbm, ⟨12, _⟩ => ⟨S768x1x256, .f32⟩
  | .hbm, ⟨13, _⟩ => ⟨S768x768x256, .f32⟩
  | .hbm, ⟨14, _⟩ => ⟨S768x768x256, .f32⟩
  | .hbm, ⟨15, _⟩ => ⟨S768x768x256, .f32⟩
  | .hbm, ⟨16, _⟩ => ⟨S1x1x256, .f32⟩
  | .hbm, ⟨17, _⟩ => ⟨S768x768x256, .f32⟩
  | .hbm, ⟨18, _⟩ => ⟨S768x768x256, .f32⟩
  | .hbm, ⟨19, _⟩ => ⟨S_, .f32⟩
  | .hbm, ⟨20, _⟩ => ⟨S768x768x256, .f32⟩
  | .hbm, ⟨21, _⟩ => ⟨S768x768x256, .f32⟩
  | .hbm, ⟨22, _⟩ => ⟨S768x768x128, .f32⟩
  | .hbm, ⟨23, _⟩ => ⟨S1x1x128, .f32⟩
  | .hbm, ⟨24, _⟩ => ⟨S768x768x128, .f32⟩
  | .hbm, ⟨25, _⟩ => ⟨S768x768x128, .f32⟩
  | .hbm, ⟨26, _⟩ => ⟨S_, .f32⟩
  | .hbm, ⟨27, _⟩ => ⟨S768x768x128, .f32⟩
  | .hbm, ⟨28, _⟩ => ⟨S768x768x128, .f32⟩
  | .hbm, ⟨29, _⟩ => ⟨S768x768x2, .f32⟩
  | .hbm, ⟨30, _⟩ => ⟨S1x1x2, .f32⟩
  | .hbm, ⟨31, _⟩ => ⟨S768x768x2, .f32⟩
  | .hbm, ⟨32, _⟩ => ⟨S768x768x2, .f32⟩
  | _, _ => ⟨S768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  slices_S256x256_S256x128_0_0 : S256x256.Slices ![0, 0] S256x128
  slices_S256x256_S256x128_0_128 : S256x256.Slices ![0, 128] S256x128
  bcast_S768x256_S1x768x256_1_2 : S768x256.BroadcastsInDim S1x768x256 (![1, 2] : Fin 2 → Fin S1x768x256.rank)
  bcast_S768x256_S768x1x256_0_2 : S768x256.BroadcastsInDim S768x1x256 (![0, 2] : Fin 2 → Fin S768x1x256.rank)
  bcast_S1x768x256_S768x768x256_0_1_2 : S1x768x256.BroadcastsInDim S768x768x256 (![0, 1, 2] : Fin 3 → Fin S768x768x256.rank)
  bcast_S768x1x256_S768x768x256_0_1_2 : S768x1x256.BroadcastsInDim S768x768x256 (![0, 1, 2] : Fin 3 → Fin S768x768x256.rank)
  bcast_S256_S1x1x256_2 : S256.BroadcastsInDim S1x1x256 (![2] : Fin 1 → Fin S1x1x256.rank)
  bcast_S1x1x256_S768x768x256_0_1_2 : S1x1x256.BroadcastsInDim S768x768x256 (![0, 1, 2] : Fin 3 → Fin S768x768x256.rank)
  bcast_S_S768x768x256 : S_.BroadcastsInDim S768x768x256 (![] : Fin 0 → Fin S768x768x256.rank)
  bcast_S128_S1x1x128_2 : S128.BroadcastsInDim S1x1x128 (![2] : Fin 1 → Fin S1x1x128.rank)
  bcast_S1x1x128_S768x768x128_0_1_2 : S1x1x128.BroadcastsInDim S768x768x128 (![0, 1, 2] : Fin 3 → Fin S768x768x128.rank)
  bcast_S_S768x768x128 : S_.BroadcastsInDim S768x768x128 (![] : Fin 0 → Fin S768x768x128.rank)
  bcast_S2_S1x1x2_2 : S2.BroadcastsInDim S1x1x2 (![2] : Fin 1 → Fin S1x1x2.rank)
  bcast_S1x1x2_S768x768x2_0_1_2 : S1x1x2.BroadcastsInDim S768x768x2 (![0, 1, 2] : Fin 3 → Fin S768x768x2.rank)
  dot_S768x128_S256x128_S768x256_1_1_0_0_n_n_wf : DotDims.WF S768x128 S256x128 S768x256 [1] [1] [0] [0] [] []
  dot_S768x768x256_S128x256_S768x768x128_2_1_01_0_n_n_wf : DotDims.WF S768x768x256 S128x256 S768x768x128 [2] [1] [0, 1] [0] [] []
  dot_S768x768x128_S2x128_S768x768x2_2_1_01_0_n_n_wf : DotDims.WF S768x768x128 S2x128 S768x768x2 [2] [1] [0, 1] [0] [] []

variable [Facts₀]

def dot_S768x128_S256x128_S768x256_1_1_0_0_n_n : DotDims S768x128 S256x128 S768x256 where
  lhsContracting := [1]
  rhsContracting := [1]
  lhsNonContracting := [0]
  rhsNonContracting := [0]
  lhsBatch := []
  rhsBatch := []
  wf := dot_S768x128_S256x128_S768x256_1_1_0_0_n_n_wf
def dot_S768x768x256_S128x256_S768x768x128_2_1_01_0_n_n : DotDims S768x768x256 S128x256 S768x768x128 where
  lhsContracting := [2]
  rhsContracting := [1]
  lhsNonContracting := [0, 1]
  rhsNonContracting := [0]
  lhsBatch := []
  rhsBatch := []
  wf := dot_S768x768x256_S128x256_S768x768x128_2_1_01_0_n_n_wf
def dot_S768x768x128_S2x128_S768x768x2_2_1_01_0_n_n : DotDims S768x768x128 S2x128 S768x768x2 where
  lhsContracting := [2]
  rhsContracting := [1]
  lhsNonContracting := [0, 1]
  rhsNonContracting := [0]
  lhsBatch := []
  rhsBatch := []
  wf := dot_S768x768x128_S2x128_S768x768x2_2_1_01_0_n_n_wf

class Facts : Prop extends Facts₀ where

variable [Facts]
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibMid.lean ====
/-
  Layout operations around a middle axis, read at coordinates: an `[a, b]` array cast to `[a, 1, b]`; an `[a, 1, b]`
  array broadcast over a middle axis of `n`; a `[1, n, b]` array broadcast over a leading axis of `a`; and the sum
  over the middle axis of an `[a, n, b]` array at the extended reals.
-/
import Idealize.ShloMosaic.PureOps.Ideal.Laws
import Idealize.ShloMosaic.Lib.ValueIdx
import Idealize.ShloMosaic.Lib.Pipeline.Value

noncomputable section

namespace Cert.LibMid

open Idealize.ShloMosaic Idealize.ShloMosaic.ValueIdx
open scoped BigOperators

variable {α : Type} {a n b : ℕ}

/-- An `[a, b]` array cast to `[a, 1, b]` reads, at `(p, u, q)`, the operand at `(p, q)`. -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, n, b]` reads, at `(p, c, q)`, the operand at `(p, 0, q)`. -/
theorem broadcastTo_a1b_anb_apply (x : (⟨3, ![a, 1, b]⟩ : Shape).Idx → α) (h : (⟨3, ![a, 1, b]⟩ : Shape).Broadcasts ⟨3, ![a, n, b]⟩)
    (p : Fin a) (c : Fin n) (q : Fin b) : broadcastTo ⟨3, ![a, n, b]⟩ x h (ix3 p c q) = x (ix3 p (0 : Fin 1) q) := by
  refine broadcastTo_apply x h (ix3 p c q) (ix3 p (0 : Fin 1) q) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]
  | ⟨2, _⟩ =>
    show q.val = if b = 1 then 0 else q.val
    split
    · have := q.isLt; omega
    · rfl

/-- A `[1, n, b]` array broadcast to `[a, n, b]` reads, at `(p, c, q)`, the operand at `(0, c, q)`. -/
theorem broadcastTo_1nb_anb_apply (x : (⟨3, ![1, n, b]⟩ : Shape).Idx → α) (h : (⟨3, ![1, n, b]⟩ : Shape).Broadcasts ⟨3, ![a, n, b]⟩)
    (p : Fin a) (c : Fin n) (q : Fin b) : broadcastTo ⟨3, ![a, n, b]⟩ x h (ix3 p c q) = x (ix3 (0 : Fin 1) c q) := by
  refine broadcastTo_apply x h (ix3 p c q) (ix3 (0 : Fin 1) c q) fun ax => ?_
  match ax with
  | ⟨0, _⟩ => show 0 = if (1 : ℕ) = 1 then 0 else p.val; rw [if_pos rfl]
  | ⟨1, _⟩ =>
    show c.val = if n = 1 then 0 else c.val
    split
    · have := c.isLt; omega
    · rfl
  | ⟨2, _⟩ =>
    show q.val = if b = 1 then 0 else q.val
    split
    · have := q.isLt; omega
    · rfl

/-- The sum over the middle axis of an `[a, n, b]` array, at the extended reals and at `(p, q)`: the sum over `k` of
    the array at `(p, k, q)`. -/
theorem multiReduction_add_mid_apply {φ : FTy} (src : FVec Ideal ⟨3, ![a, n, b]⟩ φ) (acc : BitVec φ.bits)
    (h : (⟨3, ![a, n, b]⟩ : Shape).Reduces [(1 : Fin 3)] ⟨2, ![a, b]⟩) (hφ : FKind.Formats φ) (hacc : acc = FKind.add.neutral φ hφ)
    (p : Fin a) (q : Fin b) :
    multiReduction .add [(1 : Fin 3)] ⟨2, ![a, b]⟩ src acc h hφ hacc (ix2 p q) = ∑ k : Fin n, src (ix3 p k q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibMid

end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.LibDense.lean ====
/-
  Dense layers read at coordinates, at the extended reals.

  A row-major `[M, K]` array times a `[K, N]` matrix into a zero accumulator, plus a length-`N` bias laid out as one row
  and repeated over the `M` rows, is at `(p, q)` the sum over `k` of `l (p, k) · W (k, q)`, plus `b q`. A length-`c`
  vector laid out as `[1, 1, c]` and repeated over two leading axes reads, at `(p, q, k)`, the vector at `k`.
-/
import proofs.«100504_j30296699306320_2_alg».proof.Proof.LibPlainDot
import Idealize.ShloMosaic.Lib.ValueLayout
import Idealize.ShloMosaic.Lib.Pipeline.Value

noncomputable section

namespace Cert.LibDense

open Idealize.ShloMosaic Idealize.ShloMosaic.ValueIdx
open scoped BigOperators

variable {α : Type}

/-- A length-`c` vector cast to `[1, 1, c]` reads, at `(u, v, k)`, the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- A `[1, 1, c]` array broadcast to `[a, b, c]` reads, at `(p, q, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => show 0 = if (1 : ℕ) = 1 then 0 else p.val; rw [if_pos rfl]
  | ⟨1, _⟩ => show 0 = if (1 : ℕ) = 1 then 0 else q.val; rw [if_pos rfl]
  | ⟨2, _⟩ =>
    show k.val = if c = 1 then 0 else k.val
    split
    · have := k.isLt; omega
    · rfl

variable {M K N : ℕ} (d : DotDims ⟨2, ![M, K]⟩ ⟨2, ![K, N]⟩ ⟨2, ![M, N]⟩)

/-- A dense layer before its activation, at `(p, q)`. -/
theorem dense_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (FloatOps.matmul d prec l W (constant ⟨2, ![M, N]⟩ .f32 0x00000000#32))
        (broadcastTo ⟨2, ![M, N]⟩ (shapeCast ⟨2, ![1, N]⟩ b hc) hb) (ix2 p q)
      = (∑ k : Fin K, l (ix2 p k) * W (ix2 k q)) + b (ix1 q) := by
  rw [addf_apply, Cert.LibPlainDot.matmul_plain_apply d hlc hrc hlb hrb hln hrn, broadcastTo_1b_ab_apply, shapeCast_a_1a_apply]

end Cert.LibDense

end
-- ==== Proof.LibLastAxis.lean ====
/-
  The sum over the last axis of a rank-3 array, read at coordinates.

  A kernel's reduction by addition over axis 2 of an `[a, b, n]` array, started from the additive neutral word, is at the
  extended reals and at `(p, q)` the sum over `k` of the array at `(p, q, k)`.
-/
import Idealize.ShloMosaic.PureOps.Ideal.Laws
import Idealize.ShloMosaic.Lib.ValueIdx

noncomputable section

namespace Cert.LibLastAxis

open Idealize.ShloMosaic Idealize.ShloMosaic.ValueIdx
open scoped BigOperators

variable {a b n : ℕ}

/-- The sum over the last axis of an `[a, b, n]` array at `(p, q)`: the sum over `k` of the array at `(p, q, k)`. -/
theorem multiReduction_add_last_apply {φ : FTy} (src : FVec Ideal ⟨3, ![a, b, n]⟩ φ) (acc : BitVec φ.bits)
    (h : (⟨3, ![a, b, n]⟩ : Shape).Reduces [(2 : Fin 3)] ⟨2, ![a, b]⟩) (hφ : FKind.Formats φ) (hacc : acc = FKind.add.neutral φ hφ)
    (p : Fin a) (q : Fin b) :
    multiReduction .add [(2 : Fin 3)] ⟨2, ![a, b]⟩ src acc h hφ hacc (ix2 p q) = ∑ k : Fin n, src (ix3 p q k) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibLastAxis

end
-- ==== Proof.Body.lean ====
/-
  The kernel's body at one grid point, read at coordinates on the extended reals.

  A grid point holds a tile of 128 × 128 pairs: cell `q` of the row tile against cell `p` of the column tile. Its three
  values are: the hidden layer of the tile, `max (Σ_o max (x0 (q, o) + x1 (p, o)) 0 · x2 (c, o) + x3 c) 0` — the two
  shares added and rectified, the 128 × 128 pairs laid out as 16384 rows for one matrix product with the transposed
  second-layer weights, the bias added, rectified, and laid out as pairs again —, and its two projections, one per row
  of the last weights, each a sum over the 128 hidden channels.
-/
import proofs.«100504_j30296699306320_2_alg».proof.Proof.Gen.KernelIdeal.Skeleton
import proofs.«100504_j30296699306320_2_alg».proof.Proof.LibPlainDot
import proofs.«100504_j30296699306320_2_alg».proof.Proof.LibMid
import proofs.«100504_j30296699306320_2_alg».proof.Proof.LibMerge
import proofs.«100504_j30296699306320_2_alg».proof.Proof.LibDense
import proofs.«100504_j30296699306320_2_alg».proof.Proof.LibLastAxis
import Idealize.ShloMosaic.Lib.ValueLayout
import Idealize.ShloMosaic.Lib.IdealHost
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The tile's hidden layer at pair `(p, q)`, channel `c`. -/
def hid (x0 x1 x2 : FVec Ideal S128x256 .f32) (x3 : FVec Ideal S128 .f32) (p q c : Fin 128) : EReal :=
  max ((∑ o : Fin 256, max (x0 (ix2 q o) + x1 (ix2 p o)) 0 * x2 (ix2 c o)) + x3 (ix1 c)) 0

/-- The two shares broadcast over the tile, added and rectified: at `(p, q, o)` the row tile's entry `(q, o)` plus
    the column tile's entry `(p, o)`, or zero. -/
theorem relu_pair_at (x0 x1 : FVec Ideal S128x256 .f32) (p q : Fin 128) (o : Fin 256) :
    maximumf
      (addf
        (broadcastTo S128x128x256 (shapeCast S1x128x256 (truncf .bf16 (shapeCast S128x256 x0 shapeCasts_S128x256_S128x256) bitsLt_bf16_f32) shapeCasts_S128x256_S1x128x256) broadcasts_S1x128x256_S128x128x256)
        (broadcastTo S128x128x256 (shapeCast S128x1x256 (truncf .bf16 (shapeCast S128x256 x1 shapeCasts_S128x256_S128x256) bitsLt_bf16_f32) shapeCasts_S128x256_S128x1x256) broadcasts_S128x1x256_S128x128x256))
      (broadcast S128x128x256 (Scalar.ofBits (F := Ideal) .bf16 0x0000#16)) (ix3 p q o)
    = max (x0 (ix2 q o) + x1 (ix2 p o)) 0 := by
  rw [maximumf_apply, addf_apply, broadcast_apply, Cert.LibMid.broadcastTo_1nb_anb_apply, Cert.LibMid.broadcastTo_a1b_anb_apply,
    shapeCast_ab_1ab_apply, Cert.LibMid.shapeCast_ab_a1b_apply, truncf_apply, truncf_apply, shapeCast_self, shapeCast_self]
  exact congrArg (max _) Ideal.ofBits_zero_bf16

/-- The second layer over the tile's pairs laid out as rows: at `(p, q, c)` the product of pair `(p, q)`'s 256 hidden
    values with row `c` of the weights, plus the bias, or zero. -/
theorem dense_pairs_at (h1 : FVec Ideal S128x128x256 .bf16) (x2 : FVec Ideal S128x256 .f32) (x3 : FVec Ideal S128 .f32) (p q c : Fin 128) :
    shapeCast S128x128x128
      (maximumf
        (addf
          (matmul dot_S16384x256_S256x128_S16384x128_1_0_0_1_n_n none (shapeCast S16384x256 h1 shapeCasts_S128x128x256_S16384x256)
            (transpose S256x128 [1, 0] (truncf .bf16 x2 bitsLt_bf16_f32) transposes_S128x256_p1_0_S256x128) (constant S16384x128 .f32 0x00000000#32))
          (broadcastTo S16384x128 (shapeCast S1x128 x3 shapeCasts_S128_S1x128) broadcasts_S1x128_S16384x128))
        (broadcast S16384x128 (Scalar.ofBits (F := Ideal) .f32 0x00000000#32)))
      shapeCasts_S16384x128_S128x128x128 (ix3 p q c)
    = max ((∑ o : Fin 256, h1 (ix3 p q o) * x2 (ix2 c o)) + x3 (ix1 c)) 0 := by
  have hp : p.val < 128 := p.isLt
  have hq : q.val < 128 := q.isLt
  rw [shapeCast_mb_nab_apply _ _ p q c ⟨p.val * 128 + q.val, by omega⟩ rfl, maximumf_apply, broadcast_apply,
    Cert.LibDense.dense_apply _ rfl rfl rfl rfl rfl rfl]
  refine congrArg₂ max (congrArg₂ (· + ·) (Finset.sum_congr rfl fun o _ => ?_) rfl) Ideal.ofBits_zero_f32
  rw [shapeCast_nab_mb_apply h1 _ p q o ⟨p.val * 128 + q.val, by omega⟩ rfl, transpose_ix2_apply, truncf_apply]

/-- The hidden layer of the tile. -/
theorem pay1_at (x0 x1 x2 : FVec Ideal S128x256 .f32) (x3 : FVec Ideal S128 .f32) (p q c : Fin 128) :
    k0_pay1 (F := Ideal) x0 x1 x2 x3 (ix3 p q c) = hid x0 x1 x2 x3 p q c := by
  unfold k0_pay1 hid
  refine (dense_pairs_at _ x2 x3 p q c).trans ?_
  refine congrArg₂ max (congrArg₂ (· + ·) (Finset.sum_congr rfl fun o _ => ?_) rfl) rfl
  exact congrArg (· * x2 (ix2 c o)) (relu_pair_at x0 x1 p q o)

/-- A projection of a tile's hidden layer: the sum over the 128 channels of the hidden value times row `k` of the
    last weights, the row cut out of the `2 × 128` matrix at offset `r`. -/
theorem project_at (h2 : FVec Ideal S128x128x128 .f32) (x4 : FVec Ideal S2x128 .f32) (r : ℕ) (hs : S2x128.Slices ![r, 0] S1x128)
    (k : Fin 2) (hk : k.val = r) (p q : Fin 128) :
    multiReduction .add [2] S128x128
      (mulf h2 (broadcastTo S128x128x128 (shapeCast S1x1x128 (shapeCast S128 (extractStridedSlice S1x128 ![r, 0] x4 hs) shapeCasts_S1x128_S128) shapeCasts_S128_S1x1x128) broadcasts_S1x1x128_S128x128x128))
      0x00000000#32 reduces_S128x128x128_S128x128 (.inl rfl) rfl (ix2 p q)
    = ∑ c : Fin 128, h2 (ix3 p q c) * x4 (ix2 k c) := by
  refine (Cert.LibLastAxis.multiReduction_add_last_apply _ _ _ _ _ p q).trans ?_
  refine Finset.sum_congr rfl fun c _ => ?_
  rw [mulf_apply, Cert.LibDense.broadcastTo_11c_abc_apply, Cert.LibDense.shapeCast_c_11c_apply, shapeCast_1a_a_apply,
    slice2_axis0_apply r x4 hs (0 : Fin 1) c k (by rw [hk]; rfl)]

/-- The first projection of the tile at pair `(p, q)`. -/
theorem pay2_at (x0 x1 x2 : FVec Ideal S128x256 .f32) (x3 : FVec Ideal S128 .f32) (x4 : FVec Ideal S2x128 .f32) (p q : Fin 128) :
    k0_pay2 (F := Ideal) x0 x1 x2 x3 x4 (ix2 p q) = ∑ c : Fin 128, hid x0 x1 x2 x3 p q c * x4 (ix2 (0 : Fin 2) c) := by
  unfold k0_pay2
  refine (project_at (k0_pay1 x0 x1 x2 x3) x4 0 slices_S2x128_o0_0_S1x128 0 rfl p q).trans ?_
  exact Finset.sum_congr rfl fun c _ => congrArg (· * x4 (ix2 (0 : Fin 2) c)) (pay1_at x0 x1 x2 x3 p q c)

/-- The second projection of the tile at pair `(p, q)`. -/
theorem pay3_at (x0 x1 x2 : FVec Ideal S128x256 .f32) (x3 : FVec Ideal S128 .f32) (x4 : FVec Ideal S2x128 .f32) (p q : Fin 128) :
    k0_pay3 (F := Ideal) x0 x1 x2 x3 x4 (ix2 p q) = ∑ c : Fin 128, hid x0 x1 x2 x3 p q c * x4 (ix2 (1 : Fin 2) c) := by
  unfold k0_pay3
  refine (project_at (k0_pay1 x0 x1 x2 x3) x4 1 slices_S2x128_o1_0_S1x128 1 rfl p q).trans ?_
  exact Finset.sum_congr rfl fun c _ => congrArg (· * x4 (ix2 (1 : Fin 2) c)) (pay1_at x0 x1 x2 x3 p q c)

end Cert.KernelIdeal.Body

end
-- ==== Proof.Spec.lean ====
/-
  The pairwise two-layer perceptron on the extended reals, index by index.

  Every ordered pair of cells `(i, j)` gets a first-layer pre-activation `P i j o` over 256 channels. The second layer
  rectifies it, multiplies by the `128 × 256` matrix `W2`, adds `b2` and rectifies again; the last layer is the product
  with the `2 × 128` matrix `Wf` plus `bf`. The first layer is linear in the concatenation of the two cells' embeddings,
  so it splits in two shares, one of cell `j` through the first 128 input channels of `W1` and one of cell `i` through
  the last 128, plus the bias `b1`. The bias may be added to the sum of the shares or to cell `i`'s share first: addition
  of extended reals is associative at the infinities too.
-/
import Idealize.ShloMosaic.PureOps.Ideal
import Idealize.ShloMosaic.Lib.ValueIdx

noncomputable section

namespace Cert.PairMlp

open Idealize.ShloMosaic Idealize.ShloMosaic.ValueIdx
open scoped BigOperators

/-- A matrix and a vector of extended reals. -/
abbrev Mat (a b : ℕ) := FVec Ideal ⟨2, ![a, b]⟩ .f32
abbrev Vct (a : ℕ) := FVec Ideal ⟨1, ![a]⟩ .f32

/-- A first-layer pre-activation: pair `(i, j)`, channel `o`. -/
abbrev Pre := Fin 768 → Fin 768 → Fin 256 → EReal

/-- The second layer at pair `(i, j)`, channel `c`. -/
def layer2 (P : Pre) (W2 : Mat 128 256) (b2 : Vct 128) (i j : Fin 768) (c : Fin 128) : EReal :=
  max ((∑ o : Fin 256, max (P i j o) 0 * W2 (ix2 c o)) + b2 (ix1 c)) 0

/-- The last layer's product at pair `(i, j)`, output `k`, before its bias. -/
def score (P : Pre) (W2 : Mat 128 256) (b2 : Vct 128) (Wf : Mat 2 128) (i j : Fin 768) (k : Fin 2) : EReal :=
  ∑ c : Fin 128, layer2 P W2 b2 i j c * Wf (ix2 k c)

/-- One output plane: the scores of output `k` over all pairs. -/
def plane (P : Pre) (W2 : Mat 128 256) (b2 : Vct 128) (Wf : Mat 2 128) (k : Fin 2) : Mat 768 768 :=
  fun u => score P W2 b2 Wf (u 0) (u 1) k

/-- The result: the scores plus the last bias. -/
def dists (P : Pre) (W2 : Mat 128 256) (b2 : Vct 128) (Wf : Mat 2 128) (bf : Vct 2) : FVec Ideal ⟨3, ![768, 768, 2]⟩ .f32 :=
  fun u => score P W2 b2 Wf (u 0) (u 1) (u 2) + bf (ix1 (u 2))

/-- Cell `j`'s share of the first layer: its embedding through the first 128 input channels. -/
def rowShare (z : Mat 768 128) (W1 : Mat 256 256) : Mat 768 256 :=
  fun u => ∑ d : Fin 128, z (ix2 (u 0) d) * W1 (ix2 (u 1) ⟨d.val, Nat.lt_of_lt_of_le d.isLt (by decide)⟩)

/-- Cell `i`'s share: its embedding through the last 128 input channels. -/
def colShare (z : Mat 768 128) (W1 : Mat 256 256) : Mat 768 256 :=
  fun u => ∑ d : Fin 128, z (ix2 (u 0) d) * W1 (ix2 (u 1) ⟨128 + d.val, Nat.add_lt_add_left d.isLt 128⟩)

/-- The pre-activation with the bias added to the sum of the two shares. -/
def preSum (R C : Mat 768 256) (b1 : Vct 256) : Pre := fun i j o => (R (ix2 j o) + C (ix2 i o)) + b1 (ix1 o)

/-- The pre-activation from cell `j`'s share and cell `i`'s share with the bias already in it. -/
def prePair (R C1 : Mat 768 256) : Pre := fun i j o => R (ix2 j o) + C1 (ix2 i o)

/-- Adding the bias to cell `i`'s share first gives the same pre-activation. -/
theorem prePair_bias (R C : Mat 768 256) (b1 : Vct 256) :
    prePair R (fun u => C u + b1 (ix1 (u 1))) = preSum R C b1 := by
  funext i j o
  exact (add_assoc _ _ _).symm

end Cert.PairMlp

end
-- ==== Proof.Blocks.lean ====
/-
  From the tiles to the two score planes.

  The grid has 6 × 6 points. Point `t` takes tile `J` of cell `j`'s share (128 rows of the `768 × 256` array), tile `I` of
  cell `i`'s share, the whole second-layer weights and bias and the whole last weights, and writes tile `(I, J)` of each of
  the two `768 × 768` score planes. Entry `(p, q)` of that tile depends on row `J·128 + q` of the first share and row
  `I·128 + p` of the second, which are the rows the plane's entry `(I·128 + p, J·128 + q)` depends on: every tile is a
  restriction of one function of the whole arrays, and the 36 tiles cover the plane.
-/
import proofs.«100504_j30296699306320_2_alg».proof.Proof.Gen.KernelIdeal.Frame
import proofs.«100504_j30296699306320_2_alg».proof.Proof.Body
import proofs.«100504_j30296699306320_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.PairMlp
open scoped BigOperators

theorem hz2 : (![0, 0] : Fin 2 → Nat) = fun _ => 0 := funext fun a => by fin_cases a <;> rfl
theorem hz1 : (![0] : Fin 1 → Nat) = fun _ => 0 := funext fun a => by fin_cases a <;> rfl

/-- A tile's projection is the plane's entry: when the tile's five blocks hold, at the coordinates the pair `(p, q)`
    reads, what the whole arrays hold at the rows and columns the plane's index `u` reads. -/
theorem tile_plane (R C1 : Mat 768 256) (W2 : Mat 128 256) (b2 : Vct 128) (Wf : Mat 2 128)
    (x0 x1 x2 : FVec Ideal S128x256 .f32) (x3 : FVec Ideal S128 .f32) (x4 : FVec Ideal S2x128 .f32)
    (p q : Fin 128) (k : Fin 2) (u : S768x768.Idx)
    (h0 : ∀ o, x0 (ix2 q o) = R (ix2 (u 1) o)) (h1 : ∀ o, x1 (ix2 p o) = C1 (ix2 (u 0) o))
    (h2 : ∀ c o, x2 (ix2 c o) = W2 (ix2 c o)) (h3 : ∀ c, x3 (ix1 c) = b2 (ix1 c)) (h4 : ∀ c, x4 (ix2 k c) = Wf (ix2 k c)) :
    ∑ c : Fin 128, Body.hid x0 x1 x2 x3 p q c * x4 (ix2 k c) = plane (prePair R C1) W2 b2 Wf k u := by
  unfold Body.hid plane score layer2 prePair
  simp only [h0, h1, h2, h3, h4]

variable (m : (ℓ : Loc nD τ sig) → Buf (Elt Ideal) ℓ)

/-- The printed index maps, decided over the 36 points: the first share's tile is the output's column tile, the second
    share's the output's row tile, the three constant operands stay at block 0, both outputs move together, and the
    output's tile indices stay below 6. -/
theorem idx_facts : ∀ t : Fin cfg0.N,
    win0_0.index t (0 : Fin 2) = win0_5.index t (1 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_6.index t (0 : Fin 2) = win0_5.index t (0 : Fin 2) ∧ win0_6.index t (1 : Fin 2) = win0_5.index t (1 : Fin 2)
    ∧ win0_5.index t (0 : Fin 2) ≤ 5 ∧ win0_5.index t (1 : Fin 2) ≤ 5 :=
  (by decide +kernel : ∀ t : Fin grid0.N, _)

/-- Every tile of a plane is some point's. -/
theorem idx_onto : ∀ (q0 q1 : Fin 6), ∃ t : Fin cfg0.N, win0_5.index t = ![q0.val, q1.val] :=
  (by decide +kernel : ∀ (q0 q1 : Fin 6), ∃ t : Fin grid0.N, win0_5.index t = ![q0.val, q1.val])

/-- Score plane `k` from the arrays as the region finds them. -/
abbrev planeV (c : Dev nD) (k : Fin 2) : S768x768.Idx → EReal :=
  plane (prePair (V m c main_v2) (V m c main_v8)) (V m c main_arg3) (V m c main_arg4) (V m c main_arg5) k

/-! ## The input tiles read where the output's tile says -/

/-- Row `q` of the first share's tile at point `t` is row `J` of the array, `J` = the output's column-tile index × 128 + `q`. -/
theorem read0 (c : Dev nD) (t : Fin cfg0.N) (q : Fin 128) (o : Fin 256) (J : Fin 768)
    (hJ : J.val = win0_5.index t (1 : Fin 2) * 128 + 1 * q.val) :
    iblk m c 0 t (ix2 q o) = V m c main_v2 (ix2 J o) := by
  obtain ⟨e0, e1, -⟩ := idx_facts t
  show V m c main_v2 (((cfg0.win 0).blk t).view.emb (ix2 q o)) = V m c main_v2 (ix2 J o)
  have h : ((cfg0.win 0).blk t).view.emb (ix2 q o) = (ix2 J o : S768x256.Idx) := by
    funext a; apply Fin.ext
    match a with
    | ⟨0, _⟩ => show win0_0.index t (0 : Fin 2) * 128 + 1 * q.val = J.val; omega
    | ⟨1, _⟩ => show win0_0.index t (1 : Fin 2) * 256 + 1 * o.val = o.val; omega
  rw [h]

/-- Row `p` of the second share's tile at point `t` is row `I` of the array, `I` = the output's row-tile index × 128 + `p`. -/
theorem read1 (c : Dev nD) (t : Fin cfg0.N) (p : Fin 128) (o : Fin 256) (I : Fin 768)
    (hI : I.val = win0_5.index t (0 : Fin 2) * 128 + 1 * p.val) :
    iblk m c 1 t (ix2 p o) = V m c main_v8 (ix2 I o) := by
  obtain ⟨-, -, e0, e1, -⟩ := idx_facts t
  show V m c main_v8 (((cfg0.win 1).blk t).view.emb (ix2 p o)) = V m c main_v8 (ix2 I o)
  have h : ((cfg0.win 1).blk t).view.emb (ix2 p o) = (ix2 I o : S768x256.Idx) := by
    funext a; apply Fin.ext
    match a with
    | ⟨0, _⟩ => show win0_1.index t (0 : Fin 2) * 128 + 1 * p.val = I.val; omega
    | ⟨1, _⟩ => show win0_1.index t (1 : Fin 2) * 256 + 1 * o.val = o.val; omega
  rw [h]

/-- The second-layer weights are staged whole. -/
theorem read2 (c : Dev nD) (t : Fin cfg0.N) (a : Fin 128) (o : Fin 256) :
    iblk m c 2 t (ix2 a o) = V m c main_arg3 (ix2 a o) := by
  obtain ⟨-, -, -, -, e0, e1, -⟩ := idx_facts t
  show V m c main_arg3 (((cfg0.win 2).blk t).view.emb (ix2 a o)) = V m c main_arg3 (ix2 a o)
  have h : ((cfg0.win 2).blk t).view.emb (ix2 a o) = (ix2 a o : S128x256.Idx) := by
    funext d; apply Fin.ext
    match d with
    | ⟨0, _⟩ => show win0_2.index t (0 : Fin 2) * 128 + 1 * a.val = a.val; omega
    | ⟨1, _⟩ => show win0_2.index t (1 : Fin 2) * 256 + 1 * o.val = o.val; omega
  rw [h]

/-- The second-layer bias is staged whole. -/
theorem read3 (c : Dev nD) (t : Fin cfg0.N) (a : Fin 128) :
    iblk m c 3 t (ix1 a) = V m c main_arg4 (ix1 a) := by
  obtain ⟨-, -, -, -, -, -, e0, -⟩ := idx_facts t
  show V m c main_arg4 (((cfg0.win 3).blk t).view.emb (ix1 a)) = V m c main_arg4 (ix1 a)
  have h : ((cfg0.win 3).blk t).view.emb (ix1 a) = (ix1 a : S128.Idx) := by
    funext d; apply Fin.ext
    match d with
    | ⟨0, _⟩ => show win0_3.index t (0 : Fin 1) * 128 + 1 * a.val = a.val; omega
  rw [h]

/-- The last weights are staged whole. -/
theorem read4 (c : Dev nD) (t : Fin cfg0.N) (k : Fin 2) (a : Fin 128) :
    iblk m c 4 t (ix2 k a) = V m c main_arg5 (ix2 k a) := by
  obtain ⟨-, -, -, -, -, -, -, e0, e1, -⟩ := idx_facts t
  show V m c main_arg5 (((cfg0.win 4).blk t).view.emb (ix2 k a)) = V m c main_arg5 (ix2 k a)
  have h : ((cfg0.win 4).blk t).view.emb (ix2 k a) = (ix2 k a : S2x128.Idx) := by
    funext d; apply Fin.ext
    match d with
    | ⟨0, _⟩ => show win0_4.index t (0 : Fin 2) * 2 + 1 * k.val = k.val; omega
    | ⟨1, _⟩ => show win0_4.index t (1 : Fin 2) * 128 + 1 * a.val = a.val; omega
  rw [h]

/-! ## What a point writes back -/

/-- Point `t` writes back tile `t` of the first score plane. -/
theorem flushed5_eq (c : Dev nD) (t : Fin cfg0.N) :
    (dats m 0 c).flushed 5 t = ((cfg0.win 5).blk t).view.read (Elt Ideal) (planeV m c 0) := by
  show (cfg0.win 5).cut (grid0.coords t) ((dats m 0 c).after 5 t) = _
  rw [after0_5]
  unfold out0_5
  rw [View.canon_unit_zero hz2]
  simp only [View.ld_unit_zero (S := S128x256) hz2, View.ld_unit_zero (S := S128) hz1, View.ld_unit_zero (S := S2x128) hz2]
  funext y
  obtain ⟨p, q, rfl⟩ : ∃ (p q : Fin 128), y = ix2 p q := ⟨y 0, y 1, eq_ix2 y⟩
  show k0_pay2 (F := Ideal) (iblk m c 0 t) (iblk m c 1 t) (iblk m c 2 t) (iblk m c 3 t) (iblk m c 4 t) (ix2 p q)
    = planeV m c 0 (((cfg0.win 5).blk t).view.emb (ix2 p q))
  refine (Body.pay2_at (iblk m c 0 t) (iblk m c 1 t) (iblk m c 2 t) (iblk m c 3 t) (iblk m c 4 t) p q).trans ?_
  exact tile_plane (V m c main_v2) (V m c main_v8) (V m c main_arg3) (V m c main_arg4) (V m c main_arg5)
    (iblk m c 0 t) (iblk m c 1 t) (iblk m c 2 t) (iblk m c 3 t) (iblk m c 4 t) p q 0 (((cfg0.win 5).blk t).view.emb (ix2 p q))
    (fun o => read0 m c t q o _ rfl) (fun o => read1 m c t p o _ rfl) (fun a o => read2 m c t a o) (fun a => read3 m c t a)
    (fun a => read4 m c t 0 a)

/-- Point `t` writes back tile `t` of the second score plane. -/
theorem flushed6_eq (c : Dev nD) (t : Fin cfg0.N) :
    (dats m 0 c).flushed 6 t = ((cfg0.win 6).blk t).view.read (Elt Ideal) (planeV m c 1) := by
  show (cfg0.win 6).cut (grid0.coords t) ((dats m 0 c).after 6 t) = _
  rw [after0_6]
  unfold out0_6
  rw [View.canon_unit_zero hz2]
  simp only [View.ld_unit_zero (S := S128x256) hz2, View.ld_unit_zero (S := S128) hz1, View.ld_unit_zero (S := S2x128) hz2]
  funext y
  obtain ⟨p, q, rfl⟩ : ∃ (p q : Fin 128), y = ix2 p q := ⟨y 0, y 1, eq_ix2 y⟩
  show k0_pay3 (F := Ideal) (iblk m c 0 t) (iblk m c 1 t) (iblk m c 2 t) (iblk m c 3 t) (iblk m c 4 t) (ix2 p q)
    = planeV m c 1 (((cfg0.win 6).blk t).view.emb (ix2 p q))
  refine (Body.pay3_at (iblk m c 0 t) (iblk m c 1 t) (iblk m c 2 t) (iblk m c 3 t) (iblk m c 4 t) p q).trans ?_
  obtain ⟨-, -, -, -, -, -, -, -, -, e0, e1, -⟩ := idx_facts t
  exact tile_plane (V m c main_v2) (V m c main_v8) (V m c main_arg3) (V m c main_arg4) (V m c main_arg5)
    (iblk m c 0 t) (iblk m c 1 t) (iblk m c 2 t) (iblk m c 3 t) (iblk m c 4 t) p q 1 (((cfg0.win 6).blk t).view.emb (ix2 p q))
    (fun o => read0 m c t q o _ (by show win0_6.index t (1 : Fin 2) * 128 + 1 * q.val = _; rw [e1]))
    (fun o => read1 m c t p o _ (by show win0_6.index t (0 : Fin 2) * 128 + 1 * p.val = _; rw [e0]))
    (fun a o => read2 m c t a o) (fun a => read3 m c t a) (fun a => read4 m c t 1 a)

/-! ## The tiles cover the planes -/

/-- An index of a plane is in point `t`'s tile iff each coordinate is in the tile's range on its axis. -/
theorem mem_blk5 (t : Fin cfg0.N) (i : S768x768.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v9_0).slice (win0_5.rect t)).set ↔ _
  rw [View.set_slice_whole, Rect.mem_set_unit]
  exact Iff.rfl

theorem mem_blk6 (t : Fin cfg0.N) (i : S768x768.Idx) :
    i ∈ ((cfg0.win 6).blk t).view.set ↔ ∀ a : Fin 2, win0_6.index t a * S128x128.size a ≤ (i a).val ∧ (i a).val < win0_6.index t a * S128x128.size a + S128x128.size a := by
  show i ∈ ((View.whole main_v9_1).slice (win0_6.rect t)).set ↔ _
  rw [View.set_slice_whole, Rect.mem_set_unit]
  exact Iff.rfl

/-- Every index of the first plane is in the tile of the point whose tile indices are its coordinates' quotients by 128. -/
theorem cover5 (i : S768x768.Idx) : ∃ t : Fin cfg0.N, (cfg0.win 5).flush t = true ∧ i ∈ ((cfg0.win 5).blk t).view.set := by
  have hi0 : (i 0).val < 768 := (i 0).isLt
  have hi1 : (i 1).val < 768 := (i 1).isLt
  obtain ⟨t, ht⟩ := idx_onto ⟨(i 0).val / 128, by omega⟩ ⟨(i 1).val / 128, by omega⟩
  have q0 : win0_5.index t (0 : Fin 2) = (i 0).val / 128 := congrFun ht 0
  have q1 : win0_5.index t (1 : Fin 2) = (i 1).val / 128 := congrFun ht 1
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-- The same for the second plane, whose tiles move with the first's. -/
theorem cover6 (i : S768x768.Idx) : ∃ t : Fin cfg0.N, (cfg0.win 6).flush t = true ∧ i ∈ ((cfg0.win 6).blk t).view.set := by
  have hi0 : (i 0).val < 768 := (i 0).isLt
  have hi1 : (i 1).val < 768 := (i 1).isLt
  obtain ⟨t, ht⟩ := idx_onto ⟨(i 0).val / 128, by omega⟩ ⟨(i 1).val / 128, by omega⟩
  have q0 : win0_5.index t (0 : Fin 2) = (i 0).val / 128 := congrFun ht 0
  have q1 : win0_5.index t (1 : Fin 2) = (i 1).val / 128 := congrFun ht 1
  obtain ⟨-, -, -, -, -, -, -, -, -, e0, e1, -⟩ := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 128 ≤ (i 1).val ∧ (i 1).val < win0_6.index t (1 : Fin 2) * 128 + 128; omega

/-! ## The two arrays after the region -/

/-- The first output array ends holding the first score plane. -/
theorem final5 (c : Dev nD) : (dats m 0 c).arrAt 5 cfg0.N = planeV m c 0 :=
  (dats m 0 c).arrAt_eq_of_cover 5 (planeV m c 0) (fun t _ => flushed5_eq m c t) cover5

/-- The second output array ends holding the second score plane. -/
theorem final6 (c : Dev nD) : (dats m 0 c).arrAt 6 cfg0.N = planeV m c 1 :=
  (dats m 0 c).arrAt_eq_of_cover 6 (planeV m c 1) (fun t _ => flushed6_eq m c t) cover6

end Cert.KernelIdeal.Blocks

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«100504_j30296699306320_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.Shares.lean ====
/-
  What the region finds in its two first-layer arrays.

  Before the kernel is launched the host computes the two shares of the first layer from the embeddings `z` and the
  first weights `W1`: the left half of `W1`'s columns, transposed, multiplied by `z` gives cell `j`'s share; the right
  half, transposed, multiplied by `z` and with the bias row `b1` added gives cell `i`'s share with the bias in it.
-/
import proofs.«100504_j30296699306320_2_alg».proof.Proof.Gen.KernelIdeal.Frame
import proofs.«100504_j30296699306320_2_alg».proof.Proof.LibHostDense
import proofs.«100504_j30296699306320_2_alg».proof.Proof.Spec
import Idealize.ShloMosaic.Lib.ValueLayout
import Idealize.ShloMosaic.Lib.StableHlo.Run

noncomputable section

namespace Cert.KernelIdeal.Shares

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ)

/-- The launch contents of the seven arguments on core `c`, as arrays of extended reals: the embeddings, the three
    layers' weights and their biases. -/
abbrev zA (c : Dev nD) : FVec Ideal S768x128 .f32 := m ((c.tc : Thread nD τ).loc main_arg0)
abbrev w1A (c : Dev nD) : FVec Ideal S256x256 .f32 := m ((c.tc : Thread nD τ).loc main_arg1)
abbrev b1A (c : Dev nD) : FVec Ideal S256 .f32 := m ((c.tc : Thread nD τ).loc main_arg2)
abbrev w2A (c : Dev nD) : FVec Ideal S128x256 .f32 := m ((c.tc : Thread nD τ).loc main_arg3)
abbrev b2A (c : Dev nD) : FVec Ideal S128 .f32 := m ((c.tc : Thread nD τ).loc main_arg4)
abbrev wfA (c : Dev nD) : FVec Ideal S2x128 .f32 := m ((c.tc : Thread nD τ).loc main_arg5)
abbrev bfA (c : Dev nD) : FVec Ideal S2 .f32 := m ((c.tc : Thread nD τ).loc main_arg6)

/-- A half of the first weights' columns, transposed and multiplied by the embeddings, at `(j, o)`: the sum over the
    128 input channels `d` of `z (j, d) · W1 (o, r + d)`, `r` the half's first column. -/
theorem half_at (z : FVec Ideal S768x128 .f32) (W1 : FVec Ideal S256x256 .f32) (r : ℕ) (hs : S256x256.Slices ![0, r] S256x128)
    (hr : r + 128 ≤ 256) (j : Fin 768) (o : Fin 256) :
    Host.dotGeneral (F := Ideal) dot_S768x128_S128x256_S768x256_1_0_0_1_n_n none z
        (transpose S128x256 [1, 0] (extractStridedSlice S256x128 ![0, r] W1 hs) transposes_S256x128_S128x256_1_0) (ix2 j o)
      = ∑ d : Fin 128, z (ix2 j d) * W1 (ix2 o ⟨r + d.val, by have := d.isLt; omega⟩) := by
  rw [Cert.LibHostDense.hostDot_plain_apply _ rfl rfl rfl rfl rfl rfl]
  refine Finset.sum_congr rfl fun d _ => ?_
  rw [transpose_ix2_apply, slice2_axis1_apply r W1 hs o d ⟨r + d.val, by have := d.isLt; omega⟩ rfl]

/-- Window 0's array: cell `j`'s share. -/
theorem rows (c : Dev nD) :
    (V m c main_v2 : S768x256.Idx → EReal)
      = Cert.PairMlp.rowShare (zA m c) (w1A m c) := by
  have e : (V m c main_v2 : S768x256.Idx → EReal)
      = Host.dotGeneral (F := Ideal) dot_S768x128_S128x256_S768x256_1_0_0_1_n_n none (zA m c)
          (transpose S128x256 [1, 0] (extractStridedSlice S256x128 ![0, 0] (w1A m c) slices_S256x256_S256x128_0_0) transposes_S256x128_S128x256_1_0) := by
    show StableHlo.after hostOps0 (fun b => m (c, b)) (Proc.devRef .tc main_v2) = _
    after_results
  rw [e]
  funext u
  obtain ⟨j, o, rfl⟩ : ∃ (j : Fin 768) (o : Fin 256), u = ix2 j o := ⟨u 0, u 1, eq_ix2 u⟩
  refine (half_at _ _ 0 slices_S256x256_S256x128_0_0 (by decide) j o).trans ?_
  unfold Cert.PairMlp.rowShare
  refine Finset.sum_congr rfl fun d _ => ?_
  exact congrArg (fun k => zA m c (ix2 j d) * w1A m c (ix2 o k)) (Fin.ext (Nat.zero_add _))

/-- Window 1's array: cell `i`'s share with the bias added. -/
theorem cols (c : Dev nD) :
    (V m c main_v8 : S768x256.Idx → EReal)
      = fun u => Cert.PairMlp.colShare (zA m c) (w1A m c) u + b1A m c (ix1 (u 1)) := by
  have e : (V m c main_v8 : S768x256.Idx → EReal)
      = addf (Host.dotGeneral (F := Ideal) dot_S768x128_S128x256_S768x256_1_0_0_1_n_n none (zA m c)
          (transpose S128x256 [1, 0] (extractStridedSlice S256x128 ![0, 128] (w1A m c) slices_S256x256_S256x128_0_128) transposes_S256x128_S128x256_1_0))
        (broadcastInDim S768x256 ![0, 1] bcast_S1x256_S768x256_0_1 (broadcastInDim S1x256 ![1] bcast_S256_S1x256_1 (b1A m c))) := by
    show StableHlo.after hostOps0 (fun b => m (c, b)) (Proc.devRef .tc main_v8) = _
    after_results
  rw [e]
  funext u
  obtain ⟨i, o, rfl⟩ : ∃ (i : Fin 768) (o : Fin 256), u = ix2 i o := ⟨u 0, u 1, eq_ix2 u⟩
  rw [addf_apply, half_at _ _ 128 slices_S256x256_S256x128_0_128 (by decide) i o, Cert.LibHostDense.bcastRows_apply,
    Cert.LibHostDense.bcastRow_apply]
  rfl

end Cert.KernelIdeal.Shares

end
-- ==== Proof.LibStackTwo.lean ====
/-
  Two planes stacked along a new last axis, and a vector repeated over two leading axes, read at coordinates.

  `jnp.stack([x, y], axis=-1)` of two `[a, b]` arrays gives each a trailing unit axis and joins them along it: entry
  `(p, q, k)` of the `[a, b, 2]` result is `x (p, q)` for `k = 0` and `y (p, q)` for `k = 1`. A length-`n` vector laid out
  as `[1, 1, n]` and repeated over `[a, b, n]` reads, at `(p, q, k)`, the vector at `k`.
-/
import Idealize.ShloMosaic.Lib.Pipeline.Value
import Idealize.ShloMosaic.Lib.ValueIdx

noncomputable section

namespace Cert.LibStackTwo

open Idealize.ShloMosaic Idealize.ShloMosaic.ValueIdx

variable {α : Type} {a b : ℕ}

/-- An `[a, b]` array given a trailing unit axis reads, at `(p, q, u)`, the array at `(p, q)`. -/
theorem lastUnit_apply (x : (⟨2, ![a, b]⟩ : Shape).Idx → α)
    (h : (⟨2, ![a, b]⟩ : Shape).BroadcastsInDim ⟨3, ![a, b, 1]⟩ (![0, 1] : Fin 2 → Fin 3)) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- Two `[a, b]` arrays stacked along a new last axis: entry `(p, q, k)` is the `k`-th array's entry `(p, q)`. -/
theorem stack2_apply (x y : (⟨2, ![a, b]⟩ : Shape).Idx → α)
    (h : (⟨2, ![a, b]⟩ : Shape).BroadcastsInDim ⟨3, ![a, b, 1]⟩ (![0, 1] : Fin 2 → Fin 3))
    (hc : Shape.Concatenates [(⟨3, ![a, b, 1]⟩ : Shape), ⟨3, ![a, b, 1]⟩] ⟨3, ![a, b, 2]⟩ 2) (p : Fin a) (q : Fin b) (k : Fin 2) :
    concatenate ⟨3, ![a, b, 2]⟩ 2
        [⟨⟨3, ![a, b, 1]⟩, broadcastInDim ⟨3, ![a, b, 1]⟩ ![0, 1] h x⟩, ⟨⟨3, ![a, b, 1]⟩, broadcastInDim ⟨3, ![a, b, 1]⟩ ![0, 1] h y⟩] hc
        (ix3 p q k)
      = if k.val = 0 then x (ix2 p q) else y (ix2 p q) := by
  have hk : k = 0 ∨ k = 1 := by
    match k with
    | ⟨0, _⟩ => exact Or.inl rfl
    | ⟨1, _⟩ => exact Or.inr rfl
  rcases hk with rfl | rfl
  · rw [if_pos (show (0 : Fin 2).val = 0 from rfl)]
    refine (concatenate_pair_apply_left (t := ⟨3, ![a, b, 2]⟩) (s₁ := ⟨3, ![a, b, 1]⟩) (s₂ := ⟨3, ![a, b, 1]⟩) (2 : Fin 3) _ _ hc
      (ix3 p q (0 : Fin 2)) rfl (ix3 p q (0 : Fin 1)) fun ax => ?_).trans (lastUnit_apply x h p q 0)
    match ax with
    | ⟨0, _⟩ => rfl
    | ⟨1, _⟩ => rfl
    | ⟨2, _⟩ => rfl
  · rw [if_neg (show ¬ (1 : Fin 2).val = 0 by decide)]
    refine (concatenate_pair_apply_right (t := ⟨3, ![a, b, 2]⟩) (s₁ := ⟨3, ![a, b, 1]⟩) (s₂ := ⟨3, ![a, b, 1]⟩) (2 : Fin 3) _ _ hc
      (ix3 p q (1 : Fin 2)) rfl rfl (ix3 p q (0 : Fin 1)) (fun ax hax => ?_) rfl).trans (lastUnit_apply y h p q 0)
    match ax with
    | ⟨0, _⟩ => rfl
    | ⟨1, _⟩ => rfl
    | ⟨2, _⟩ => exact absurd rfl hax

/-- A length-`n` vector laid out as `[1, 1, n]` and repeated over `[a, b, n]` reads, at `(p, q, k)`, the vector at `k`. -/
theorem vecOverPlanes_apply {n : ℕ} (v : (⟨1, ![n]⟩ : Shape).Idx → α)
    (h1 : (⟨1, ![n]⟩ : Shape).BroadcastsInDim ⟨3, ![1, 1, n]⟩ (![2] : Fin 1 → Fin 3))
    (h2 : (⟨3, ![1, 1, n]⟩ : Shape).BroadcastsInDim ⟨3, ![a, b, n]⟩ (![0, 1, 2] : Fin 3 → Fin 3)) (p : Fin a) (q : Fin b) (k : Fin n) :
    broadcastInDim ⟨3, ![a, b, n]⟩ ![0, 1, 2] h2 (broadcastInDim ⟨3, ![1, 1, n]⟩ ![2] h1 v) (ix3 p q k) = v (ix1 k) := by
  refine (broadcastInDim_apply _ h2 _ (ix3 p q k) (ix3 (0 : Fin 1) (0 : Fin 1) k) fun ax => ?_).trans
    (broadcastInDim_apply _ h1 v (ix3 (0 : Fin 1) (0 : Fin 1) k) (ix1 k) fun ax => ?_)
  · match ax with
    | ⟨0, _⟩ => show 0 = if (1 : ℕ) = 1 then 0 else p.val; rw [if_pos rfl]
    | ⟨1, _⟩ => show 0 = if (1 : ℕ) = 1 then 0 else q.val; rw [if_pos rfl]
    | ⟨2, _⟩ =>
      show k.val = if n = 1 then 0 else k.val
      split
      · have := k.isLt; omega
      · rfl
  · match ax with
    | ⟨0, _⟩ =>
      show k.val = if n = 1 then 0 else k.val
      split
      · have := k.isLt; omega
      · rfl

end Cert.LibStackTwo

end
-- ==== Proof.KernelValue.lean ====
/-
  What the kernel program leaves in its result array.

  After the region the host gives each score plane a trailing unit axis, joins the two along it and adds the last bias:
  entry `(i, j, k)` of the result is plane `k` at `(i, j)` plus `bf k`. The planes are the specification's planes of the
  pre-activation built from the region's two share arrays; the second share carries the first bias, and adding it there
  or to the sum of the shares is the same, so the result is the specification's `dists`.
-/
import proofs.«100504_j30296699306320_2_alg».proof.Proof.Blocks
import proofs.«100504_j30296699306320_2_alg».proof.Proof.Shares
import proofs.«100504_j30296699306320_2_alg».proof.Proof.LibStackTwo
import proofs.«100504_j30296699306320_2_alg».proof.Proof.Spec
import Idealize.ShloMosaic.Lib.StableHlo.Run

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Shares Cert.PairMlp
open scoped BigOperators

variable (m : (ℓ : Loc nD τ sig) → Buf (Elt Ideal) ℓ) (ρ : Dev nD → PrngReg)

/-- The specification at the launch contents of the arguments on core `c`. -/
def result (c : Dev nD) : S768x768x2.Idx → EReal :=
  dists (preSum (rowShare (zA m c) (w1A m c)) (colShare (zA m c) (w1A m c)) (b1A m c)) (w2A m c) (b2A m c) (wfA m c) (bfA m c)

/-- A score plane from the region's arrays is the specification's plane from the arguments. -/
theorem planeV_eq (c : Dev nD) (k : Fin 2) :
    Blocks.planeV m c k
      = plane (preSum (rowShare (zA m c) (w1A m c)) (colShare (zA m c) (w1A m c)) (b1A m c)) (w2A m c) (b2A m c) (wfA m c) k := by
  have hR : (V m c main_v2 : S768x256.Idx → EReal) = rowShare (zA m c) (w1A m c) := Shares.rows m c
  have hC : (V m c main_v8 : S768x256.Idx → EReal) = fun u => colShare (zA m c) (w1A m c) u + b1A m c (ix1 (u 1)) := Shares.cols m c
  have h3 : (V m c main_arg3 : S128x256.Idx → EReal) = w2A m c := V_main_arg3 m c
  have h4 : (V m c main_arg4 : S128.Idx → EReal) = b2A m c := V_main_arg4 m c
  have h5 : (V m c main_arg5 : S2x128.Idx → EReal) = wfA m c := V_main_arg5 m c
  show plane (prePair (V m c main_v2) (V m c main_v8)) (V m c main_arg3) (V m c main_arg4) (V m c main_arg5) k = _
  rw [hR, hC, h3, h4, h5, prePair_bias]

/-- The result array after the host's last lines. -/
theorem tail_eq (c : Dev nD) :
    (Pipeline.afterTail₀ cfgs (dats m) 0 (V0 m) [hostOps1] c main_v15 : S768x768x2.Idx → EReal) = result m c := by
  unfold Pipeline.afterTail₀
  show StableHlo.after hostOps1 _ (Proc.devRef .tc main_v15) = _
  after_results
  have a5 : (Pipeline.withArrays (cfgs 0).spec c (V0 m c) (fun w => (dats m 0 c).arrAt w (cfgs 0).N) (Proc.devRef .tc main_v9_0) : S768x768.Idx → EReal)
      = Blocks.planeV m c 0 := (Pipeline.withArrays_arr spec0 launch0.win.arr_inj c _ _ 5).trans (Blocks.final5 m c)
  have a6 : (Pipeline.withArrays (cfgs 0).spec c (V0 m c) (fun w => (dats m 0 c).arrAt w (cfgs 0).N) (Proc.devRef .tc main_v9_1) : S768x768.Idx → EReal)
      = Blocks.planeV m c 1 := (Pipeline.withArrays_arr spec0 launch0.win.arr_inj c _ _ 6).trans (Blocks.final6 m c)
  have a7 : (Pipeline.withArrays (cfgs 0).spec c (V0 m c) (fun w => (dats m 0 c).arrAt w (cfgs 0).N) (Proc.devRef .tc main_arg6) : S2.Idx → EReal)
      = bfA m c :=
    (Pipeline.withArrays_of_ne _ c (V0 m c) _ main_arg6 (by exact (by decide : ∀ w, Pipeline.arrRef spec0 w ≠ main_arg6))).trans (V_main_arg6 m c)
  rw [a5, a6, a7]
  funext u
  obtain ⟨i, j, k, rfl⟩ : ∃ (i j : Fin 768) (k : Fin 2), u = ix3 i j k := ⟨u 0, u 1, u 2, eq_ix3 u⟩
  rw [addf_apply, Cert.LibStackTwo.stack2_apply, Cert.LibStackTwo.vecOverPlanes_apply]
  unfold result dists
  refine congrArg₂ (· + ·) ?_ rfl
  have hk : k = 0 ∨ k = 1 := by
    match k with
    | ⟨0, _⟩ => exact Or.inl rfl
    | ⟨1, _⟩ => exact Or.inr rfl
  rcases hk with rfl | rfl
  · rw [if_pos (show (0 : Fin 2).val = 0 from rfl), planeV_eq]; rfl
  · rw [if_neg (show ¬ (1 : Fin 2).val = 0 by decide), planeV_eq]; rfl

/-- The kernel program's run: every weakly fair execution ends with the result array at the specification and the
    seven arguments as launched. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c)⟩)
    (run_main m ρ)

end Cert.KernelIdeal.KValue

end
-- ==== Proof.RefSide.lean ====
/-
  The reference computes the specification.

  The reference forms the two first-layer shares by contracting the embeddings with the two halves of the first weights'
  columns, adds them over all ordered pairs, adds the bias, rectifies; contracts the 256 channels with the second
  weights, adds the bias, rectifies; contracts the 128 channels with the last weights and adds the last bias. Read at an
  index one operation at a time, that is the specification's `dists` of the pre-activation with the bias added to the
  sum of the shares.
-/
import proofs.«100504_j30296699306320_2_alg».proof.Proof.Gen.ReferenceIdeal.Read
import proofs.«100504_j30296699306320_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.PairMlp
open scoped BigOperators

variable (x0 : FVec Ideal S768x128 .f32) (x1 : FVec Ideal S256x256 .f32) (x2 : FVec Ideal S256 .f32)
  (x3 : FVec Ideal S128x256 .f32) (x4 : FVec Ideal S128 .f32) (x5 : FVec Ideal S2x128 .f32) (x6 : FVec Ideal S2 .f32)

/-- The first contraction is cell `j`'s share. -/
theorem share_row : val_main_v1 (F := Ideal) x0 x1 = rowShare x0 x1 := by
  funext u
  obtain ⟨a, o, rfl⟩ : ∃ (a : Fin 768) (o : Fin 256), u = ix2 a o := ⟨u 0, u 1, eq_ix2 u⟩
  rw [val_main_v1_apply]
  unfold rowShare
  refine Finset.sum_congr rfl fun d _ => ?_
  rw [val_main_v0_apply]
  have el : lidx_main_v1 (ix2 a o) d = ix2 a d := funext fun e => Fin.ext (by match e with | ⟨0, _⟩ => rfl | ⟨1, _⟩ => rfl)
  have er : idx_main_v0 (ridx_main_v1 (ix2 a o) d) = ix2 o ⟨d.val, Nat.lt_of_lt_of_le d.isLt (by decide)⟩ :=
    funext fun e => Fin.ext (by match e with | ⟨0, _⟩ => rfl | ⟨1, _⟩ => rfl)
  rw [el, er]

/-- The second contraction is cell `i`'s share. -/
theorem share_col : val_main_v3 (F := Ideal) x0 x1 = colShare x0 x1 := by
  funext u
  obtain ⟨a, o, rfl⟩ : ∃ (a : Fin 768) (o : Fin 256), u = ix2 a o := ⟨u 0, u 1, eq_ix2 u⟩
  rw [val_main_v3_apply]
  unfold colShare
  refine Finset.sum_congr rfl fun d _ => ?_
  rw [val_main_v2_apply]
  have el : lidx_main_v3 (ix2 a o) d = ix2 a d := funext fun e => Fin.ext (by match e with | ⟨0, _⟩ => rfl | ⟨1, _⟩ => rfl)
  have er : idx_main_v2 (ridx_main_v3 (ix2 a o) d) = ix2 o ⟨128 + d.val, Nat.add_lt_add_left d.isLt 128⟩ :=
    funext fun e => Fin.ext (by match e with | ⟨0, _⟩ => rfl | ⟨1, _⟩ => rfl)
  rw [el, er]

/-- The first hidden layer at pair `(i, j)`, channel `o`: the rectified pre-activation. -/
theorem hidden1_at (i j : Fin 768) (o : Fin 256) :
    val_main_v12 (F := Ideal) x0 x1 x2 (ix3 i j o) = max (preSum (rowShare x0 x1) (colShare x0 x1) x2 i j o) 0 := by
  have e4 : idx_main_v4 (idx_main_v6 (ix3 i j o)) = ix2 j o := funext fun e => Fin.ext (by match e with | ⟨0, _⟩ => rfl | ⟨1, _⟩ => rfl)
  have e5 : idx_main_v5 (idx_main_v7 (ix3 i j o)) = ix2 i o := funext fun e => Fin.ext (by match e with | ⟨0, _⟩ => rfl | ⟨1, _⟩ => rfl)
  have e9 : idx_main_v9 (idx_main_v10 (ix3 i j o)) = ix1 o := funext fun e => Fin.ext (by match e with | ⟨0, _⟩ => rfl)
  rw [val_main_v12_apply, val_main_v11_apply, val_main_v8_apply, val_main_v6_apply, val_main_v4_apply, val_main_v7_apply,
    val_main_v5_apply, val_main_v10_apply, val_main_v9_apply, val_main_call0_v0_apply, val_main_call0_cst_apply,
    share_row, share_col, e4, e5, e9, Ideal.maximumf_def, Ideal.addf_def, Ideal.addf_def, Ideal.ofBits_def, Ideal.ofBits_zero_f32]
  rfl

/-- The second hidden layer at pair `(i, j)`, channel `c`. -/
theorem hidden2_at (i j : Fin 768) (c : Fin 128) :
    val_main_v17 (F := Ideal) x0 x1 x2 x3 x4 (ix3 i j c) = layer2 (preSum (rowShare x0 x1) (colShare x0 x1) x2) x3 x4 i j c := by
  have e14 : idx_main_v14 (idx_main_v15 (ix3 i j c)) = ix1 c := funext fun e => Fin.ext (by match e with | ⟨0, _⟩ => rfl)
  have el : ∀ o : Fin 256, lidx_main_v13 (ix3 i j c) o = ix3 i j o :=
    fun o => funext fun e => Fin.ext (by match e with | ⟨0, _⟩ => rfl | ⟨1, _⟩ => rfl | ⟨2, _⟩ => rfl)
  have er : ∀ o : Fin 256, ridx_main_v13 (ix3 i j c) o = ix2 c o :=
    fun o => funext fun e => Fin.ext (by match e with | ⟨0, _⟩ => rfl | ⟨1, _⟩ => rfl)
  rw [val_main_v17_apply, val_main_v16_apply, val_main_v13_apply, val_main_v15_apply, val_main_v14_apply,
    val_main_call1_v0_apply, val_main_call1_cst_apply, e14, Ideal.maximumf_def, Ideal.addf_def, Ideal.ofBits_def, Ideal.ofBits_zero_f32]
  unfold layer2
  refine congrArg₂ max (congrArg₂ (· + ·) (Finset.sum_congr rfl fun o _ => ?_) rfl) rfl
  rw [el, er, hidden1_at]

/-- The reference's result is the specification's. -/
theorem ref_eq :
    val_main_v21 (F := Ideal) x0 x1 x2 x3 x4 x5 x6 = dists (preSum (rowShare x0 x1) (colShare x0 x1) x2) x3 x4 x5 x6 := by
  funext u
  obtain ⟨i, j, k, rfl⟩ : ∃ (i j : Fin 768) (k : Fin 2), u = ix3 i j k := ⟨u 0, u 1, u 2, eq_ix3 u⟩
  have e19 : idx_main_v19 (idx_main_v20 (ix3 i j k)) = ix1 k := funext fun e => Fin.ext (by match e with | ⟨0, _⟩ => rfl)
  have el : ∀ c : Fin 128, lidx_main_v18 (ix3 i j k) c = ix3 i j c :=
    fun c => funext fun e => Fin.ext (by match e with | ⟨0, _⟩ => rfl | ⟨1, _⟩ => rfl | ⟨2, _⟩ => rfl)
  have er : ∀ c : Fin 128, ridx_main_v18 (ix3 i j k) c = ix2 k c :=
    fun c => funext fun e => Fin.ext (by match e with | ⟨0, _⟩ => rfl | ⟨1, _⟩ => rfl)
  rw [val_main_v21_apply, val_main_v18_apply, val_main_v20_apply, val_main_v19_apply, e19, Ideal.addf_def]
  unfold dists score
  refine congrArg₂ (· + ·) (Finset.sum_congr rfl fun c _ => ?_) rfl
  rw [el, er, hidden2_at]

end Cert.ReferenceIdeal.RefValue

end
-- ==== Proof.lean ====
/-
  A pairwise two-layer perceptron over 768 cells: every ordered pair `(i, j)` is scored by
  `Wf · relu (W2 · relu (W1 · [z j ; z i] + b1) + b2) + bf`.

  The first layer is linear in the concatenated embeddings, so both programs split it in two shares: cell `j`'s through
  the first 128 input channels of `W1`, cell `i`'s through the last 128. The kernel program computes the two shares on the
  host, adds `b1` to cell `i`'s share there, and hands 128 × 128 tiles of pairs to the kernel, which adds the two shares,
  rectifies, multiplies the tile's 16384 pairs by the second weights in one matrix product, adds `b2`, rectifies, and takes
  the two projections by the last weights as sums over the 128 hidden channels; the host stacks the two score planes and
  adds `bf`. The reference adds the two shares over all pairs first and `b1` after, and contracts with `W2` and `Wf` by
  `dot_general`. On the extended reals the two are one function, index by index: the sums are the same sums, a change of
  float format is the identity, and the one difference, where `b1` is added, is the associativity of addition, which holds
  at the infinities too — so the precondition is never opened. Both frames of the kernel program are the generated ones;
  the idealization rewrote nothing.
-/
import proofs.«100504_j30296699306320_2_alg».proof.Defs
import proofs.«100504_j30296699306320_2_alg».proof.Proof.Gen.Kernel
import proofs.«100504_j30296699306320_2_alg».proof.Proof.Gen.Kernel.Frame
import proofs.«100504_j30296699306320_2_alg».proof.Proof.Gen.KernelIdeal
import proofs.«100504_j30296699306320_2_alg».proof.Proof.Gen.KernelIdeal.Frame
import proofs.«100504_j30296699306320_2_alg».proof.Proof.Gen.ReferenceIdeal
import proofs.«100504_j30296699306320_2_alg».proof.Proof.Gen.Pre_finite_inputs
import proofs.«100504_j30296699306320_2_alg».proof.Proof.Gen.ReferenceIdeal.Run
import proofs.«100504_j30296699306320_2_alg».proof.Proof.Gen.ReferenceIdeal.Read
import proofs.«100504_j30296699306320_2_alg».proof.Proof.KernelValue
import proofs.«100504_j30296699306320_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the specification's `dists` of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v21_eq _ _ _ _ _ _ _).trans (Cert.ReferenceIdeal.RefValue.ref_eq _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
